-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16384 : Shape := ⟨1, ![16384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_
  reducesTo_S_S_d : S_.ReducesTo [] S_

variable [Facts]

def fn {F : FTy → Type} [FloatOps F] (main_arg0 : FVec F S100000x128 .f32) (main_arg1 : IVec S16384 32) (main_arg2 : IVec S_ 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 99999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  let main_c_3 : IVec S_ 32 := constantI S_ 32 0#32
  let main_v11 : IVec S_ 1 := cmpi .sge main_arg2 main_c_3
  let main_c_4 : IVec S_ 32 := constantI S_ 32 0#32
  let main_v12 : IVec S_ 1 := cmpi .sle main_arg2 main_c_4
  let main_v13 : IVec S_ 1 := andi main_v11 main_v12
  let main_c_5 : IVec S_ 1 := constantI S_ 1 1#1
  let main_v14 : IVec S_ 1 := (fun x v => Host.reduce IntOp.andi x v reducesTo_S_S_d h_S_) main_v13 main_c_5
  let main_v15 : IVec S_ 1 := andi main_v10 main_v14
  main_v15
-- ==== Kernel.lean ====
abbrev S100000x128 : Shape := ⟨2, ![100000, 128]⟩
abbrev S16384 : Shape := ⟨1, ![16384]⟩
abbrev S_ : Shape := ⟨0, ![]⟩
abbrev S16384x128 : Shape := ⟨2, ![16384, 128]⟩
abbrev S512 : Shape := ⟨1, ![512]⟩
abbrev S512x128 : Shape := ⟨2, ![512, 128]⟩

abbrev nBuf : Table → Nat
  | .hbm => 4
  | .local .scVector .vmem => 2
  | _ => 0

abbrev bufTy : (tb : Table) → Fin (nBuf tb) → BufTy
  | .hbm, ⟨0, _⟩ => ⟨S100000x128, .f32⟩
  | .hbm, ⟨1, _⟩ => ⟨S16384, .i32⟩
  | .hbm, ⟨2, _⟩ => ⟨S_, .i32⟩
  | .hbm, ⟨3, _⟩ => ⟨S16384x128, .f32⟩
  | .local .scVector .vmem, ⟨0, _⟩ => ⟨S512, .i32⟩
  | .local .scVector .vmem, ⟨1, _⟩ => ⟨S512x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S100000x128 : Shape := ⟨2, ![100000, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.PreDecode.lean ====
/-
  What the precondition says of the list of row numbers: each of its words lies between 0 and 99999 as a signed
  32-bit integer, hence reads below 100000 as an unsigned word.
-/
import proofs.«204865_g18872086299473_cont_8to1_712_9_alg».proof.Pre_input_domain
import proofs.«204865_g18872086299473_cont_8to1_712_9_alg».proof.Proof.Gen.Pre_input_domain
import Idealize.ShloMosaic.Lib.ValueIdx
import Idealize.ShloMosaic.Lib.ReduceAll

namespace Cert.PreDecode

open Idealize.ShloMosaic Idealize.ShloMosaic.ValueIdx

/-- The scalar shape has one index. -/
instance : Subsingleton Cert.Pre_input_domain.S_.Idx := ⟨fun a b => funext fun d => d.elim0⟩

/-- A word that is at least 0 and at most 99999 as a signed integer is below 100000 as an unsigned one: a word whose
    signed reading is non-negative reads the same unsigned. -/
theorem word_lt (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  rw [BitVec.toInt_eq_toNat_cond] at h0 h1
  have := v.isLt
  split at h0 <;> omega

/-- The precondition is the conjunction of three tests; the middle one is the conjunction, over the whole list, of
    "0 ≤ word" and "word ≤ 99999" as signed comparisons. -/
theorem perm_lt {F : FTy → Type} [FloatOps F] [Cert.Pre_input_domain.Facts]
    (x : FVec F Cert.Pre_input_domain.S100000x128 .f32) (p : IVec Cert.Pre_input_domain.S16384 32)
    (s : IVec Cert.Pre_input_domain.S_ 32)
    (h : Cert.Pre_input_domain.fn (F := F) x p s = fun _ => 1#1) :
    ∀ n : Fin 16384, (p (ValueIdx.ix1 n)).toNat < 100000 := by
  intro n
  have h0 := congrFun h ix0
  dsimp only [Cert.Pre_input_domain.fn] at h0
  change IntOp.andi (IntOp.andi _ _) _ = 1#1 at h0
  obtain ⟨⟨-, h9⟩, -⟩ := (IntOp.andi_eq_one.1 h0).imp_left IntOp.andi_eq_one.1
  have h8 := Host.reduce_andi_all _ _ _ _ _ h9 (ix1 n)
  change IntOp.andi (IntOp.cmpi .sge (p (ix1 n)) 0#32) (IntOp.cmpi .sle (p (ix1 n)) 99999#32) = 1#1 at h8
  obtain ⟨ha, hb⟩ := IntOp.andi_eq_one.1 h8
  exact word_lt _ ha hb

end Cert.PreDecode
-- ==== Proof.Spec.lean ====
/-
  The function both programs compute: a table of 100000 rows of 128 numbers and a list of 16384 row numbers give
  the 16384 rows the list names, in the list's order. Entry (n, j) of the result is entry (list n, j) of the
  table. A row number is a 32-bit word read unsigned; so that the function is defined for every word it is capped
  at the last row, and for a word below 100000 the cap changes nothing.
-/
import Idealize.ShloMosaic.Lib.ValueIdx

namespace Cert.Spec

open Idealize.ShloMosaic Idealize.ShloMosaic.ValueIdx

/-- The table's shape, the list's and the result's. -/
abbrev ST : Shape := ⟨2, ![100000, 128]⟩
abbrev SP : Shape := ⟨1, ![16384]⟩
abbrev SO : Shape := ⟨2, ![16384, 128]⟩

/-- The row of the table that entry `n` of the list names. -/
def rowOf (p : SP.Idx → BitVec 32) (n : Fin 16384) : Fin 100000 :=
  ⟨min (p (ix1 n)).toNat 99999, by omega⟩

/-- For a word below 100000 the named row is the word. -/
theorem rowOf_val {p : SP.Idx → BitVec 32} {n : Fin 16384} (h : (p (ix1 n)).toNat < 100000) :
    (rowOf p n).val = (p (ix1 n)).toNat := by
  show min _ _ = _; omega

/-- The rows the list names: entry (n, j) is the table at (row named by entry n, j). -/
def G {α : Type} (x : ST.Idx → α) (p : SP.Idx → BitVec 32) : SO.Idx → α :=
  fun y => x (ix2 (rowOf p ⟨(y 0).val, idx2_lt0 y⟩) ⟨(y 1).val, idx2_lt1 y⟩)

theorem G_apply {α : Type} (x : ST.Idx → α) (p : SP.Idx → BitVec 32) (n : Fin 16384) (j : Fin 128) :
    G x p (ix2 n j) = x (ix2 (rowOf p n) j) := rfl

end Cert.Spec
-- ==== Proof.IdealSetup.lean ====
/-
  The gather kernel as its launch sees it. Thirty-two vector subcores (two cores of sixteen) each take one block of
  512 consecutive entries of the list, fetch the table rows those entries name, and write them to the same block of
  512 rows of the result. Worker `16 c + i` is subcore `i` of core `c`. The table is read by every worker, so each
  holds a read share of it; the list and the result are cut into the workers' blocks. This module fixes the
  vocabulary: the locations, the blocks as sets of indices, the shares, the value every row of the result must end
  at, and what the handshakes of the one call carry to each core and each subcore and bring back.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204865_g18872086299473_cont_8to1_712_9_alg».proof.Proof.Gen.KernelIdeal
import proofs.«204865_g18872086299473_cont_8to1_712_9_alg».proof.Proof.Gen.KernelIdeal.Skeleton
import proofs.«204865_g18872086299473_cont_8to1_712_9_alg».proof.Proof.Spec

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the workers' blocks -/

variable (m : (ℓ : Loc nD τ sig) → Buf (Elt F) ℓ) (ρ : Dev nD → PrngReg)

/-- The table, the list, the unused scalar argument and the result, as locations of device `d`. -/
abbrev tLoc (d : Dev nD) : Loc nD τ sig := (SparseCore.T d).loc main_arg0
abbrev pLoc (d : Dev nD) : Loc nD τ sig := (SparseCore.T d).loc main_arg1
abbrev sLoc (d : Dev nD) : Loc nD τ sig := (SparseCore.T d).loc main_arg2
abbrev oLoc (d : Dev nD) : Loc nD τ sig := (SparseCore.T d).loc main_v0

local notation "tV" => (Memref.whole Cert.KernelIdeal.main_arg0_scv : Memref Cert.KernelIdeal.sig Kind.scVector Space.hbm Cert.KernelIdeal.S100000x128 EltTy.f32)
local notation "pV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)

/-- Worker `16 c + i`: subcore `i` of core `c`. -/
def wid (c : Fin 2) (i : Fin 16) : Fin 32 := finProdFinEquiv (c, i)
theorem wid_val (c : Fin 2) (i : Fin 16) : (wid c i).val = i.val + 16 * c.val := rfl

theorem pdiv : 32 ∣ S16384.size 0 := ⟨512, rfl⟩
theorem odiv : 32 ∣ S16384x128.size 0 := ⟨512, rfl⟩
/-- Worker `w`'s block: entries `512 w … 512 w + 511` of the list, rows `512 w … 512 w + 511` of the result. -/
abbrev prow (w : Fin 32) : Rect S16384 := Rect.part (s := S16384) (a₀ := 0) pdiv w
abbrev orow (w : Fin 32) : Rect S16384x128 := Rect.part (s := S16384x128) (a₀ := 0) odiv w
abbrev pRowSet (w : Fin 32) : Finset S16384.Idx := ((pV).view.slice (prow w)).set
abbrev oRowSet (w : Fin 32) : Finset S16384x128.Idx := ((oV).view.slice (orow w)).set

/-- Worker `w`'s read share of the table. -/
abbrev tq (w : Fin 32) : PosShare TreeShare := Transfers.shareTok fullShare 32 w

/-- What the proof asks of the launch memory: every entry of the list, read unsigned, names a row of the table. -/
def PreOK : Prop := ∀ (d : Dev nD) (n : Fin 16384), (m (pLoc d) (ix1 n)).toNat < 100000

/-- The value the result must end at on device `d`: row `n` is the table's row named by entry `n` of the list. -/
def Gd (d : Dev nD) : Buf (Elt F) (oLoc d) := Cert.Spec.G (m (tLoc d)) (m (pLoc d))

variable [FloatOps F]

/-! ## What the handshakes carry -/

abbrev tPts (d : Dev nD) : sProp 𝕄 := tLoc d ↦{fullShare} m (tLoc d)
abbrev pPts (d : Dev nD) : sProp 𝕄 := pLoc d ↦{fullShare} m (pLoc d)
abbrev oPts (d : Dev nD) (f : Buf (Elt F) (oLoc d)) : sProp 𝕄 := oLoc d ↦{fullShare} f
abbrev pRowPts (d : Dev nD) (w : Fin 32) : sProp 𝕄 := pLoc d ↦[pRowSet w]{fullShare} m (pLoc d)
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[oRowSet w]{fullShare} f

/-- What worker `w` is handed: its block of the list, its share of the table, its block of the result at the launch
    contents; -/
abbrev goR (d : Dev nD) (w : Fin 32) : sProp 𝕄 := iprop(pRowPts m d w ∗ tShPts m d w ∗ oRowPts d w (m (oLoc d)))
/-- and what it hands back: the same, its block of the result now at the rows its entries name. -/
abbrev tdR (d : Dev nD) (w : Fin 32) : sProp 𝕄 := iprop(pRowPts m d w ∗ tShPts m d w ∗ oRowPts d w (Gd m d))

/-- The one call hands each core its sixteen workers' parts, each subcore its own, and brings them back. -/
def P : (K (F := F)).Pay (nD := nD) (Val := Elt F) (Name := ℕ) (U := UU) where
  st := fun q d c => match q with
    | 0 => bigSep Finset.univ fun i : Fin ((K (F := F)).nSub 0) => goR m d (wid (Fin.cast nCore_zero c) (Fin.cast nSub_zero i))
  dn := fun q d c => match q with
    | 0 => bigSep Finset.univ fun i : Fin ((K (F := F)).nSub 0) => tdR m d (wid (Fin.cast nCore_zero c) (Fin.cast nSub_zero i))
  go := fun q d c i => match q with
    | 0 => goR m d (wid (Fin.cast nCore_zero c) (Fin.cast nSub_zero i))
  td := fun q d c i => match q with
    | 0 => tdR m d (wid (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => goR m d (wid (Fin.cast nCore_zero c) (Fin.cast nSub_zero i))))
  dn q d c := match q with
    | 0 => (inferInstance : BI.Storable (upEmb : UEmb _ 𝕄)
        (bigSep Finset.univ fun i : Fin ((K (F := F)).nSub 0) => tdR m d (wid (Fin.cast nCore_zero c) (Fin.cast nSub_zero i))))
  go q d c i := match q with
    | 0 => (inferInstance : BI.Storable (upEmb : UEmb _ 𝕄) (goR m d (wid (Fin.cast nCore_zero c) (Fin.cast nSub_zero i))))
  td q d c i := match q with
    | 0 => (inferInstance : BI.Storable (upEmb : UEmb _ 𝕄) (tdR m d (wid (Fin.cast nCore_zero c) (Fin.cast nSub_zero i))))

/-- A core's part is its subcores' parts, both ways: nothing to do. -/
theorem vecSplit : (K (F := F)).VecSplit' (P m) 0 := by
  intro d c
  show (bigSep Finset.univ fun i : Fin ((K (F := F)).nSub 0) => goR m d (wid (Fin.cast nCore_zero c) (Fin.cast nSub_zero i)))
    ⊢ |={Set.univ}=> iprop((bigSep Finset.univ fun i : Fin ((K (F := F)).nSub 0) => goR m d (wid (Fin.cast nCore_zero c) (Fin.cast nSub_zero i)))
      ∗ ((bigSep Finset.univ fun i : Fin ((K (F := F)).nSub 0) => tdR m d (wid (Fin.cast nCore_zero c) (Fin.cast nSub_zero i)))
          -∗ (bigSep Finset.univ fun i : Fin ((K (F := F)).nSub 0) => tdR m d (wid (Fin.cast nCore_zero c) (Fin.cast nSub_zero i)))))
  iintro H; imodintro
  isplitl [H]; · iexact H
  iintro H; iexact H

end Cert.Proof.IdealK

end
-- ==== Proof.IdealBody.lean ====
/-
  One worker's task. Worker `w` copies entries `512 w … 512 w + 511` of the list into its index scratch, has the
  engine fetch, for each of those 512 entries, the table row the entry names into row `k` of its row scratch, and
  copies the row scratch to rows `512 w … 512 w + 511` of the result. Each transfer is waited for before the next
  begins. The entries are below 100000, so every fetched row exists; and row `512 w + k` of the result ends at the
  table's row named by entry `512 w + k` of the list, which is the specified value.
-/
import proofs.«204865_g18872086299473_cont_8to1_712_9_alg».proof.Proof.IdealSetup

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "tV" => (Memref.whole Cert.KernelIdeal.main_arg0_scv : Memref Cert.KernelIdeal.sig Kind.scVector Space.hbm Cert.KernelIdeal.S100000x128 EltTy.f32)
local notation "pV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "iS" => (Memref.whole Cert.KernelIdeal.cc0_scratch0 : Memref Cert.KernelIdeal.sig Kind.scVector Space.vmem Cert.KernelIdeal.S512 EltTy.i32)
local notation "rS" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The worker at grid point `L`. -/
abbrev wL (L : grid0.Coords) : Fin 32 := wid ⟨(L 0).val, (L 0).isLt⟩ ⟨(L 1).val, (L 1).isLt⟩

/-- The worker's blocks as the program slices them. -/
abbrev prowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev pRowK (L : grid0.Coords) : Memref sig .scVector .hbm S512 .i32 := (pV).slice (prowK L) (fun _ => rfl)
abbrev oRowK (L : grid0.Coords) : Memref sig .scVector .hbm S512x128 .f32 := (oV).slice (orowK L) (fun _ => rfl)
abbrev tAllK : Memref sig .scVector .hbm S100000x128 .f32 :=
  (tV).slice (Rect.unit (s := S100000x128) ![0, 0] S100000x128.size inb_S100000x128_S100000x128_0_0) (fun _ => rfl)

omit [FloatOps F] in
/-- The program's offset `512 (16 c + i)` is block `16 c + i` of the cut into 32. -/
theorem prowK_eq : prowK L = prow (wL L) := by
  unfold prowK prow Rect.part Rect.block
  congr 1 <;> funext a
  · rw [k0_off1_eq]
    match a with
    | 0 => simp [Shape.partIx, Shape.partSize, wid_val]; omega
  · match a with
    | 0 => simp [Shape.partSize]
omit [FloatOps F] in
theorem orowK_eq : orowK L = orow (wL L) := by
  unfold orowK orow Rect.part Rect.block
  congr 1 <;> funext a
  · rw [k0_off2_eq]
    match a with
    | 0 => simp [Shape.partIx, Shape.partSize, wid_val]; omega
    | 1 => simp [Shape.partIx, Shape.partSize]
  · match a with
    | 0 => simp [Shape.partSize]
    | 1 => simp [Shape.partSize]

omit [FloatOps F] in
theorem set_pRowK : (pRowK L).view.set = pRowSet (wL L) := by
  show ((pV).view.slice (prowK L)).set = ((pV).view.slice (prow (wL L))).set
  rw [prowK_eq]
omit [FloatOps F] in
theorem set_oRowK : (oRowK L).view.set = oRowSet (wL L) := by
  show ((oV).view.slice (orowK L)).set = ((oV).view.slice (orow (wL L))).set
  rw [orowK_eq]

omit [FloatOps F] in
theorem pts_pRowK (f : Buf (Elt F) (pLoc d)) :
    ((pRowK L).view.loc (V d (cV L) (jV L)) ↦[(pRowK L).view.set]{fullShare} f : sProp 𝕄) = pLoc d ↦[pRowSet (wL L)]{fullShare} f := by
  rw [set_pRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_iS (f : Buf (Elt F) ((V d (cV L) (jV L)).loc cc0_scratch0)) :
    ((iS).view.loc (V d (cV L) (jV L)) ↦{fullShare} f : sProp 𝕄) = (V d (cV L) (jV L)).loc cc0_scratch0 ↦{fullShare} f := rfl
omit [FloatOps F] in
theorem pts_rS (f : Buf (Elt F) ((V d (cV L) (jV L)).loc cc0_scratch1)) :
    ((rS).view.loc (V d (cV L) (jV L)) ↦{fullShare} f : sProp 𝕄) = (V d (cV L) (jV L)).loc cc0_scratch1 ↦{fullShare} f := rfl

/-- The three DMA semaphores of a worker: the index fetch's, the row fetch's, the write-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Whatever the index scratch held before, once the worker's block of the list has landed in it every word it
    holds is an entry of the list, hence below 100000. -/
theorem inb_of_pre (hpre : PreOK m) (fs : Buf (Elt F) ((V d (cV L) (jV L)).loc cc0_scratch0)) :
    ∀ x, ((iS).view.read (Elt F) (View.write (Elt F) (iS).view fs ((pRowK L).view.read (Elt F) (m (pLoc d))) Finset.univ) x).toNat
      < S100000x128.size gathers_S100000x128_S512x128.axis := by
  intro x
  rw [View.write_whole_univ]
  simp only [Memref.view_whole, View.read_whole]
  rw [show ∀ j, (pRowK L).view.read (Elt F) (m (pLoc d)) j = m (pLoc d) ((pRowK L).view.emb j) from fun j => (View.read_apply _ _).trans (cast_eq _ _)]
  rw [eq_ix1 ((pRowK L).view.emb x)]
  exact hpre d _

/-! ## The value of a worker's block -/

omit [FloatOps F] in
/-- Entry `k` of the worker's block of the list sits at entry `512 w + k` of the list, and row `k` of its block of the
    result at row `512 w + k` of the result: the two blocks start at the same place. -/
theorem blocks_aligned (k : Fin 512) (y : S512x128.Idx) (hk : k.val = (y 0).val) :
    (pRowK L).view.emb (ix1 k) = ix1 ⟨((oRowK L).view.emb y 0).val, idx2_lt0 ((oRowK L).view.emb y)⟩ := by
  funext a
  match a with
  | ⟨0, _⟩ =>
    refine Fin.ext ?_
    show k0_off1 L 0 + 1 * k.val = k0_off2 L 0 + 1 * (y 0).val
    rw [k0_off1_eq, k0_off2_eq, hk]; rfl

omit [FloatOps F] in
/-- The row numbers the engine reads off the index scratch, once the worker's block of the list has landed there,
    are the block's entries in order. -/
theorem rows_val (fs : Buf (Elt F) ((V d (cV L) (jV L)).loc cc0_scratch0))
    (hn : S512.numel = S512x128.size gathers_S100000x128_S512x128.axis')
    (h : ∀ x, ((iS).view.read (Elt F) (View.write (Elt F) (iS).view fs
        (ReadAs.same.apply ((pRowK L).view.read (Elt F) (m (pLoc d)))) Finset.univ) x).toNat < S100000x128.size gathers_S100000x128_S512x128.axis)
    (k : Fin 512) :
    (SparseCore.rows ((iS).view.read (Elt F) (View.write (Elt F) (iS).view fs
        (ReadAs.same.apply ((pRowK L).view.read (Elt F) (m (pLoc d)))) Finset.univ)) hn h k).val
      = (m (pLoc d) ((pRowK L).view.emb (ix1 k))).toNat := by
  have hsym : S512.rowMajor.symm (Fin.cast hn.symm k) = ix1 k := by
    rw [Equiv.symm_apply_eq]
    exact Fin.ext (Shape.rowMajor_val_one (ix1 k)).symm
  show ((iS).view.read (Elt F) (View.write (Elt F) (iS).view fs
        (ReadAs.same.apply ((pRowK L).view.read (Elt F) (m (pLoc d)))) Finset.univ) (S512.rowMajor.symm (Fin.cast hn.symm k))).toNat = _
  rw [hsym, View.write_whole_univ]
  simp only [Memref.view_whole, View.read_whole]
  exact congrArg BitVec.toNat ((View.read_apply _ _).trans (cast_eq _ _))

omit [FloatOps F] in
/-- What the worker leaves in its block of the result. The row scratch holds, at row `k`, the table's row numbered
    by entry `k` of the worker's block of the list; copied to rows `512 w …` of the result, entry `(512 w + k, j)`
    is the table at (entry `512 w + k` of the list, `j`): the specified value. -/
theorem block_value (hpre : PreOK m) (fr : Buf (Elt F) ((V d (cV L) (jV L)).loc cc0_scratch1))
    (r : Fin (S512x128.size gathers_S100000x128_S512x128.axis') → Fin (S100000x128.size gathers_S100000x128_S512x128.axis))
    (hr : ∀ k : Fin 512, (r k).val = (m (pLoc d) ((pRowK L).view.emb (ix1 k))).toNat)
    (pay : S512x128.Idx → Elt F .f32)
    (hpay : pay = ReadAs.same.apply ((rS).view.read (Elt F) ((rS).view.writes (Elt F) fr
        [⟨Rect.whole cc0_scratch1.ty.shape,
          SparseCore.gatherPayload gathers_S100000x128_S512x128 ((tAllK).view.read (Elt F) (m (tLoc d))) r⟩]))) :
    ∀ i ∈ (oRowK L).view.set, (oRowK L).view.writes (Elt F) (m (oLoc d)) [⟨Rect.whole S512x128, pay⟩] i = Gd m d i := by
  subst hpay
  intro i hi
  obtain ⟨y, -, rfl⟩ := Finset.mem_map.mp hi
  -- the block read back where it was written
  have e1 : ∀ w : S512x128.Idx → Elt F .f32,
      (oRowK L).view.writes (Elt F) (m (oLoc d)) [⟨Rect.whole S512x128, w⟩] ((oRowK L).view.emb y) = w y := by
    intro w
    have h := View.read_writes_cons_emb (oRowK L).view (m (oLoc d)) (Rect.whole S512x128) w [] y
    rw [Rect.emb_whole_apply] at h
    exact ((View.read_apply _ _).trans (cast_eq _ _)).symm.trans h
  have e2 : (rS).view.read (Elt F) ((rS).view.writes (Elt F) fr
      [⟨Rect.whole cc0_scratch1.ty.shape,
        SparseCore.gatherPayload gathers_S100000x128_S512x128 ((tAllK).view.read (Elt F) (m (tLoc d))) r⟩]) y
      = SparseCore.gatherPayload gathers_S100000x128_S512x128 ((tAllK).view.read (Elt F) (m (tLoc d))) r y := by
    have h := View.read_writes_cons_emb (rS).view fr (Rect.whole cc0_scratch1.ty.shape)
      (SparseCore.gatherPayload gathers_S100000x128_S512x128 ((tAllK).view.read (Elt F) (m (tLoc d))) r) [] y
    rw [Rect.emb_whole_apply] at h
    exact h
  rw [e1, ReadAs.apply_same, e2]
  show (tAllK).view.read (Elt F) (m (tLoc d)) (gathers_S100000x128_S512x128.idx r y) = _
  refine ((View.read_apply _ _).trans (cast_eq _ _)).trans ?_
  show m (tLoc d) ((tAllK).view.emb (gathers_S100000x128_S512x128.idx r y))
    = m (tLoc d) (ix2 (Cert.Spec.rowOf (m (pLoc d)) ⟨((oRowK L).view.emb y 0).val, idx2_lt0 ((oRowK L).view.emb y)⟩)
        ⟨((oRowK L).view.emb y 1).val, idx2_lt1 ((oRowK L).view.emb y)⟩)
  refine congrArg (m (tLoc d)) ?_
  funext a
  match a with
  | ⟨0, _⟩ =>
    refine Fin.ext ?_
    show 0 + 1 * (gathers_S100000x128_S512x128.idx r y gathers_S100000x128_S512x128.axis).val = _
    rw [Shape.Gathers.idx_axis, Nat.zero_add, Nat.one_mul]
    show (r ⟨(y 0).val, (y 0).isLt⟩).val = _
    refine (hr ⟨(y 0).val, (y 0).isLt⟩).trans ?_
    refine (congrArg (fun j => (m (pLoc d) j).toNat) (blocks_aligned L ⟨(y 0).val, (y 0).isLt⟩ y rfl)).trans ?_
    exact (Cert.Spec.rowOf_val (p := m (pLoc d)) (hpre d _)).symm
  | ⟨1, _⟩ =>
    refine Fin.ext ?_
    show 0 + 1 * (gathers_S100000x128_S512x128.idx r y ⟨1, by decide⟩).val = k0_off2 L 1 + 1 * (y 1).val
    rw [Shape.Gathers.idx_of_ne _ _ _ _ (by decide), k0_off2_eq]; rfl

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goR m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) pV (Memref.isWhole_whole _) oV (Memref.isWhole_whole _)
            iS (Memref.isWhole_whole _) rS (Memref.isWhole_whole _) cc0_scratch2 cc0_scoped0 cc0_scoped1)
          fun _ => iprop(tdR m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hp, Ht, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_pRowK (F := F) d L _).symm) $$ Hp
  ihave Ho' := (Entails.of_eq (pts_oRowK (F := F) d L _).symm) $$ Ho
  ihave Ht' := (Entails.of_eq (pts_tV (F := F) d L _ _).symm) $$ Ht
  ihave Hs' := (Entails.of_eq (pts_iS (F := F) d L _).symm) $$ Hs
  ihave Hr' := (Entails.of_eq (pts_rS (F := F) d L _).symm) $$ Hr
  have hin := inb_of_pre m d L hpre
  sl_exec
  have hval : ∀ i ∈ (oRowK L).view.set,
      (oRowK L).view.writes (Elt F) (m (oLoc d)) [⟨Rect.whole S512x128, tile_body.sl.dma0_1 m d L fs fr hin⟩] i = Gd m d i :=
    block_value m d L hpre fr _ (fun k => rows_val m d L fs _ (fun x => id (hin fs x)) k) _ rfl
  sl_step
  isplitl [Hp' Ht' Ho']
  · isplitl [Hp']; · iapply (Entails.of_eq (pts_pRowK (F := F) d L _)); iexact Hp'
    isplitl [Ht']; · iexact Ht'
    iapply (Entails.of_eq ((pointsTo_congr hval).trans (pts_oRowK (F := F) d L (Gd m d)))); iexact Ho'
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.IdealK

end
-- ==== Proof.IdealMain.lean ====
/-
  The TensorCore's side of the run. Before the one call it cuts the list and the result into the thirty-two workers'
  blocks and the table into thirty-two read shares and a remainder it keeps; two cores of sixteen workers take their
  parts. After the call every block of the result is at the specified rows, the blocks cover the result, and the
  shares and the remainder make the table whole again; so the three arguments end as they began and the result ends
  at the rows the list names, which is then read off the final memory.
-/
import proofs.«204865_g18872086299473_cont_8to1_712_9_alg».proof.Proof.IdealSetup

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg0_scv : Memref Cert.KernelIdeal.sig Kind.scVector Space.hbm Cert.KernelIdeal.S100000x128 EltTy.f32)
local notation "pV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "iS" => (Memref.whole Cert.KernelIdeal.cc0_scratch0 : Memref Cert.KernelIdeal.sig Kind.scVector Space.vmem Cert.KernelIdeal.S512 EltTy.i32)
local notation "rS" => (Memref.whole Cert.KernelIdeal.cc0_scratch1 : Memref Cert.KernelIdeal.sig Kind.scVector Space.vmem Cert.KernelIdeal.S512x128 EltTy.f32)

variable [FloatOps F]

/-! ## The blocks cut and joined; the table's shares -/

omit [FloatOps F] in
theorem pRowSet_eq (w : Fin 32) : pRowSet w = (prow w).set := by
  show ((View.whole (main_arg1_scv : Ref sig .scVector)).slice (prow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem prows_disjoint : ∀ i ∈ (Finset.univ : Finset (Fin 32)), ∀ j ∈ (Finset.univ : Finset (Fin 32)), i ≠ j → Disjoint (pRowSet i) (pRowSet j) :=
  fun i _ j _ h => by rw [pRowSet_eq, pRowSet_eq]; exact Rect.part_disjoint pdiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem prows_cover : (Finset.univ : Finset (Fin 32)).biUnion pRowSet = Finset.univ :=
  (Finset.biUnion_congr rfl fun i _ => pRowSet_eq i).trans (Rect.biUnion_part pdiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem pPts_rows (d : Dev nD) (f : Buf (Elt F) (pLoc d)) :
    (pLoc d ↦{fullShare} f : sProp 𝕄) = bigSep Finset.univ fun w : Fin 32 => pLoc d ↦[pRowSet w]{fullShare} f := by
  rw [← pointsTo_biUnion Finset.univ (ℓ := pLoc d) pRowSet prows_disjoint, prows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

omit [FloatOps F] in
/-- Thirty-two workers are two cores of sixteen. -/
theorem bigSep_workers (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i)))
      = bigSep Finset.univ Φ := by
  rw [bigSep_univ_equiv (finProdFinEquiv : Fin 2 × Fin 16 ≃ Fin 32) Φ, bigSep_univ_prod]
  rfl

/-- The arrays whole are the workers' parts and the remainder of the table's share; -/
theorem st_split (d : Dev nD) :
    iprop(tPts m d ∗ pPts m d ∗ oPts d (m (oLoc d)))
      ⊢ iprop((tLoc d ↦{Transfers.shareDrop fullShare 32} m (tLoc d))
          ∗ bigSep Finset.univ fun c : Fin ((K (F := F)).nCore 0) => (P m).st 0 d c) := by
  show _ ⊢ iprop(_ ∗ bigSep Finset.univ fun c : Fin ((K (F := F)).nCore 0) => bigSep Finset.univ fun i : Fin ((K (F := F)).nSub 0) =>
    goR m d (wid (Fin.cast nCore_zero c) (Fin.cast nSub_zero i)))
  rw [bigSep_workers (F := F) (fun w => goR m d w), bigSep_sep', bigSep_sep']
  unfold pPts oPts
  rw [pPts_rows, oPts_rows]
  iintro ⟨Ht, Hp, Ho⟩
  ihave Hts := (Transfers.pointsTo_toks_split (ℓ := tLoc d) (S := Finset.univ) (f := m (tLoc d)) fullShare 32) $$ Ht
  icases Hts with ⟨Hrem, Hts⟩
  isplitl [Hrem]; · iexact Hrem
  isplitl [Hp]; · iexact Hp
  isplitl [Hts]; · iexact Hts
  iexact Ho

/-- and back, the result's blocks now at the specified rows. -/
theorem dn_join (d : Dev nD) :
    iprop((tLoc d ↦{Transfers.shareDrop fullShare 32} m (tLoc d))
          ∗ bigSep Finset.univ fun c : Fin ((K (F := F)).nCore 0) => (P m).dn 0 d c)
      ⊢ iprop(tPts m d ∗ pPts m d ∗ oPts d (Gd m d)) := by
  show iprop(_ ∗ bigSep Finset.univ fun c : Fin ((K (F := F)).nCore 0) => bigSep Finset.univ fun i : Fin ((K (F := F)).nSub 0) =>
    tdR m d (wid (Fin.cast nCore_zero c) (Fin.cast nSub_zero i))) ⊢ _
  rw [bigSep_workers (F := F) (fun w => tdR m d w), bigSep_sep', bigSep_sep']
  unfold pPts oPts
  rw [pPts_rows, oPts_rows]
  iintro ⟨Hrem, Hp, Hts, Ho⟩
  isplitl [Hrem Hts]
  · iapply (Transfers.pointsTo_toks_join (ℓ := tLoc d) (S := Finset.univ) (f := m (tLoc d)) fullShare 32)
    isplitl [Hrem]; · iexact Hrem
    iexact Hts
  isplitl [Hp]; · iexact Hp
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (pLoc d ↦{fullShare} W main_arg1) ∗ (sLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What @main leaves the claim: the three arguments at their launch contents, the result at the specified rows. -/
abbrev FIN (d : Dev nD) : sProp 𝕄 := iprop(tPts m d ∗ pPts m d ∗ (sLoc d ↦{fullShare} m (sLoc d)) ∗ oPts d (Gd m d))

/-- @main on device `d`'s TensorCore: the one call, from the three arrays cut into the workers' parts and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hp, Hs, Ho⟩, -, -⟩, -⟩
  ihave Hsp := (st_split m d) $$ [Ht Hp Ho]
  · isplitl [Ht]; · iexact Ht
    isplitl [Hp]; · iexact Hp
    iexact Ho
  icases Hsp with ⟨Hrem, Hst0⟩
  iapply ((K (F := F)).wp_run (D (F := F)) 𝒱 (EH := EH) (P := P m) κ d 0) $$ [Hst Hst0 Hrem Hs]
  isplitr; · iexact Hctx
  isplitl [Hst]; · iexact Hst
  isplitl [Hst0]; · iexact Hst0
  iintro ⟨Hst, Hdn⟩
  ihave Hj := (dn_join m d) $$ [Hrem Hdn]
  · isplitl [Hrem]; · iexact Hrem
    iexact Hdn
  icases Hj with ⟨Ht, Hp, Ho⟩
  imodintro
  isplitl [Hst]; · iexact Hst
  isplitl [Ht]; · iexact Ht
  isplitl [Hp]; · iexact Hp
  isplitl [Hs]; · iexact Hs
  iexact Ho

def fq (d : Dev nD) (s' : Phys nD τ sig (Elt F)) : Prop :=
  s'.mem.mem (oLoc d) = Gd m d ∧ s'.mem.mem (tLoc d) = m (tLoc d) ∧ s'.mem.mem (pLoc d) = m (pLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Ht, Hp, Hs, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h3, HSI, -⟩
  ihave H := (SI_pointsTo_agree (st := s') (ℓ := oLoc d) (I := Finset.univ) (q := fullShare) (f := Gd m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

end Cert.Proof.IdealK

end
-- ==== Proof.IdealLaunch.lean ====
/-
  The whole device's run, from its two halves: each worker's task ends with its block of the result at the rows its
  entries name, and the TensorCore hands the workers their parts and takes them back. So from a memory whose list
  names rows of the table every weakly fair execution of the device's threads ends, nothing faults, the three
  arguments end as they began and the result ends at the rows the list names.
-/
import proofs.«204865_g18872086299473_cont_8to1_712_9_alg».proof.Proof.IdealBody
import proofs.«204865_g18872086299473_cont_8to1_712_9_alg».proof.Proof.IdealMain

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.KernelIdeal.main_arg0_scv : Memref Cert.KernelIdeal.sig Kind.scVector Space.hbm Cert.KernelIdeal.S100000x128 EltTy.f32)
local notation "pV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "iS" => (Memref.whole Cert.KernelIdeal.cc0_scratch0 : Memref Cert.KernelIdeal.sig Kind.scVector Space.vmem Cert.KernelIdeal.S512 EltTy.i32)
local notation "rS" => (Memref.whole Cert.KernelIdeal.cc0_scratch1 : Memref Cert.KernelIdeal.sig Kind.scVector Space.vmem Cert.KernelIdeal.S512x128 EltTy.f32)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) pV (Memref.isWhole_whole _) oV (Memref.isWhole_whole _)
          iS (Memref.isWhole_whole _) rS (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The program's run -/

def QC : PUnit × MemSt nD τ sig (Elt F) → Prop := fun r => ∀ c : Dev nD,
  r.2.mem (oLoc c) = Gd m c ∧ r.2.mem (tLoc c) = m (tLoc c) ∧ r.2.mem (pLoc c) = m (pLoc c) ∧ r.2.mem (sLoc c) = m (sLoc c)

/-- Every weakly fair execution of the device's threads from a memory whose list names rows of the table ends, with
    the result at the rows the list names and the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealK

end
-- ==== Proof.BitsSetup.lean ====
/-
  The gather kernel as its launch sees it. Thirty-two vector subcores (two cores of sixteen) each take one block of
  512 consecutive entries of the list, fetch the table rows those entries name, and write them to the same block of
  512 rows of the result. Worker `16 c + i` is subcore `i` of core `c`. The table is read by every worker, so each
  holds a read share of it; the list and the result are cut into the workers' blocks. This module fixes the
  vocabulary: the locations, the blocks as sets of indices, the shares, the value every row of the result must end
  at, and what the handshakes of the one call carry to each core and each subcore and bring back.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204865_g18872086299473_cont_8to1_712_9_alg».proof.Proof.Gen.Kernel
import proofs.«204865_g18872086299473_cont_8to1_712_9_alg».proof.Proof.Gen.Kernel.Skeleton
import proofs.«204865_g18872086299473_cont_8to1_712_9_alg».proof.Proof.Spec

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the workers' blocks -/

variable (m : (ℓ : Loc nD τ sig) → Buf (Elt F) ℓ) (ρ : Dev nD → PrngReg)

/-- The table, the list, the unused scalar argument and the result, as locations of device `d`. -/
abbrev tLoc (d : Dev nD) : Loc nD τ sig := (SparseCore.T d).loc main_arg0
abbrev pLoc (d : Dev nD) : Loc nD τ sig := (SparseCore.T d).loc main_arg1
abbrev sLoc (d : Dev nD) : Loc nD τ sig := (SparseCore.T d).loc main_arg2
abbrev oLoc (d : Dev nD) : Loc nD τ sig := (SparseCore.T d).loc main_v0

local notation "tV" => (Memref.whole Cert.Kernel.main_arg0_scv : Memref Cert.Kernel.sig Kind.scVector Space.hbm Cert.Kernel.S100000x128 EltTy.f32)
local notation "pV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)

/-- Worker `16 c + i`: subcore `i` of core `c`. -/
def wid (c : Fin 2) (i : Fin 16) : Fin 32 := finProdFinEquiv (c, i)
theorem wid_val (c : Fin 2) (i : Fin 16) : (wid c i).val = i.val + 16 * c.val := rfl

theorem pdiv : 32 ∣ S16384.size 0 := ⟨512, rfl⟩
theorem odiv : 32 ∣ S16384x128.size 0 := ⟨512, rfl⟩
/-- Worker `w`'s block: entries `512 w … 512 w + 511` of the list, rows `512 w … 512 w + 511` of the result. -/
abbrev prow (w : Fin 32) : Rect S16384 := Rect.part (s := S16384) (a₀ := 0) pdiv w
abbrev orow (w : Fin 32) : Rect S16384x128 := Rect.part (s := S16384x128) (a₀ := 0) odiv w
abbrev pRowSet (w : Fin 32) : Finset S16384.Idx := ((pV).view.slice (prow w)).set
abbrev oRowSet (w : Fin 32) : Finset S16384x128.Idx := ((oV).view.slice (orow w)).set

/-- Worker `w`'s read share of the table. -/
abbrev tq (w : Fin 32) : PosShare TreeShare := Transfers.shareTok fullShare 32 w

/-- What the proof asks of the launch memory: every entry of the list, read unsigned, names a row of the table. -/
def PreOK : Prop := ∀ (d : Dev nD) (n : Fin 16384), (m (pLoc d) (ix1 n)).toNat < 100000

/-- The value the result must end at on device `d`: row `n` is the table's row named by entry `n` of the list. -/
def Gd (d : Dev nD) : Buf (Elt F) (oLoc d) := Cert.Spec.G (m (tLoc d)) (m (pLoc d))

variable [FloatOps F]

/-! ## What the handshakes carry -/

abbrev tPts (d : Dev nD) : sProp 𝕄 := tLoc d ↦{fullShare} m (tLoc d)
abbrev pPts (d : Dev nD) : sProp 𝕄 := pLoc d ↦{fullShare} m (pLoc d)
abbrev oPts (d : Dev nD) (f : Buf (Elt F) (oLoc d)) : sProp 𝕄 := oLoc d ↦{fullShare} f
abbrev pRowPts (d : Dev nD) (w : Fin 32) : sProp 𝕄 := pLoc d ↦[pRowSet w]{fullShare} m (pLoc d)
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[oRowSet w]{fullShare} f

/-- What worker `w` is handed: its block of the list, its share of the table, its block of the result at the launch
    contents; -/
abbrev goR (d : Dev nD) (w : Fin 32) : sProp 𝕄 := iprop(pRowPts m d w ∗ tShPts m d w ∗ oRowPts d w (m (oLoc d)))
/-- and what it hands back: the same, its block of the result now at the rows its entries name. -/
abbrev tdR (d : Dev nD) (w : Fin 32) : sProp 𝕄 := iprop(pRowPts m d w ∗ tShPts m d w ∗ oRowPts d w (Gd m d))

/-- The one call hands each core its sixteen workers' parts, each subcore its own, and brings them back. -/
def P : (K (F := F)).Pay (nD := nD) (Val := Elt F) (Name := ℕ) (U := UU) where
  st := fun q d c => match q with
    | 0 => bigSep Finset.univ fun i : Fin ((K (F := F)).nSub 0) => goR m d (wid (Fin.cast nCore_zero c) (Fin.cast nSub_zero i))
  dn := fun q d c => match q with
    | 0 => bigSep Finset.univ fun i : Fin ((K (F := F)).nSub 0) => tdR m d (wid (Fin.cast nCore_zero c) (Fin.cast nSub_zero i))
  go := fun q d c i => match q with
    | 0 => goR m d (wid (Fin.cast nCore_zero c) (Fin.cast nSub_zero i))
  td := fun q d c i => match q with
    | 0 => tdR m d (wid (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => goR m d (wid (Fin.cast nCore_zero c) (Fin.cast nSub_zero i))))
  dn q d c := match q with
    | 0 => (inferInstance : BI.Storable (upEmb : UEmb _ 𝕄)
        (bigSep Finset.univ fun i : Fin ((K (F := F)).nSub 0) => tdR m d (wid (Fin.cast nCore_zero c) (Fin.cast nSub_zero i))))
  go q d c i := match q with
    | 0 => (inferInstance : BI.Storable (upEmb : UEmb _ 𝕄) (goR m d (wid (Fin.cast nCore_zero c) (Fin.cast nSub_zero i))))
  td q d c i := match q with
    | 0 => (inferInstance : BI.Storable (upEmb : UEmb _ 𝕄) (tdR m d (wid (Fin.cast nCore_zero c) (Fin.cast nSub_zero i))))

/-- A core's part is its subcores' parts, both ways: nothing to do. -/
theorem vecSplit : (K (F := F)).VecSplit' (P m) 0 := by
  intro d c
  show (bigSep Finset.univ fun i : Fin ((K (F := F)).nSub 0) => goR m d (wid (Fin.cast nCore_zero c) (Fin.cast nSub_zero i)))
    ⊢ |={Set.univ}=> iprop((bigSep Finset.univ fun i : Fin ((K (F := F)).nSub 0) => goR m d (wid (Fin.cast nCore_zero c) (Fin.cast nSub_zero i)))
      ∗ ((bigSep Finset.univ fun i : Fin ((K (F := F)).nSub 0) => tdR m d (wid (Fin.cast nCore_zero c) (Fin.cast nSub_zero i)))
          -∗ (bigSep Finset.univ fun i : Fin ((K (F := F)).nSub 0) => tdR m d (wid (Fin.cast nCore_zero c) (Fin.cast nSub_zero i)))))
  iintro H; imodintro
  isplitl [H]; · iexact H
  iintro H; iexact H

end Cert.Proof.BitsK

end
-- ==== Proof.BitsBody.lean ====
/-
  One worker's task. Worker `w` copies entries `512 w … 512 w + 511` of the list into its index scratch, has the
  engine fetch, for each of those 512 entries, the table row the entry names into row `k` of its row scratch, and
  copies the row scratch to rows `512 w … 512 w + 511` of the result. Each transfer is waited for before the next
  begins. The entries are below 100000, so every fetched row exists; and row `512 w + k` of the result ends at the
  table's row named by entry `512 w + k` of the list, which is the specified value.
-/
import proofs.«204865_g18872086299473_cont_8to1_712_9_alg».proof.Proof.BitsSetup

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "tV" => (Memref.whole Cert.Kernel.main_arg0_scv : Memref Cert.Kernel.sig Kind.scVector Space.hbm Cert.Kernel.S100000x128 EltTy.f32)
local notation "pV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "iS" => (Memref.whole Cert.Kernel.cc0_scratch0 : Memref Cert.Kernel.sig Kind.scVector Space.vmem Cert.Kernel.S512 EltTy.i32)
local notation "rS" => (Memref.whole Cert.Kernel.cc0_scratch1 : Memref Cert.Kernel.sig Kind.scVector Space.vmem Cert.Kernel.S512x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The worker at grid point `L`. -/
abbrev wL (L : grid0.Coords) : Fin 32 := wid ⟨(L 0).val, (L 0).isLt⟩ ⟨(L 1).val, (L 1).isLt⟩

/-- The worker's blocks as the program slices them. -/
abbrev prowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev pRowK (L : grid0.Coords) : Memref sig .scVector .hbm S512 .i32 := (pV).slice (prowK L) (fun _ => rfl)
abbrev oRowK (L : grid0.Coords) : Memref sig .scVector .hbm S512x128 .f32 := (oV).slice (orowK L) (fun _ => rfl)
abbrev tAllK : Memref sig .scVector .hbm S100000x128 .f32 :=
  (tV).slice (Rect.unit (s := S100000x128) ![0, 0] S100000x128.size inb_S100000x128_S100000x128_0_0) (fun _ => rfl)

omit [FloatOps F] in
/-- The program's offset `512 (16 c + i)` is block `16 c + i` of the cut into 32. -/
theorem prowK_eq : prowK L = prow (wL L) := by
  unfold prowK prow Rect.part Rect.block
  congr 1 <;> funext a
  · rw [k0_off1_eq]
    match a with
    | 0 => simp [Shape.partIx, Shape.partSize, wid_val]; omega
  · match a with
    | 0 => simp [Shape.partSize]
omit [FloatOps F] in
theorem orowK_eq : orowK L = orow (wL L) := by
  unfold orowK orow Rect.part Rect.block
  congr 1 <;> funext a
  · rw [k0_off2_eq]
    match a with
    | 0 => simp [Shape.partIx, Shape.partSize, wid_val]; omega
    | 1 => simp [Shape.partIx, Shape.partSize]
  · match a with
    | 0 => simp [Shape.partSize]
    | 1 => simp [Shape.partSize]

omit [FloatOps F] in
theorem set_pRowK : (pRowK L).view.set = pRowSet (wL L) := by
  show ((pV).view.slice (prowK L)).set = ((pV).view.slice (prow (wL L))).set
  rw [prowK_eq]
omit [FloatOps F] in
theorem set_oRowK : (oRowK L).view.set = oRowSet (wL L) := by
  show ((oV).view.slice (orowK L)).set = ((oV).view.slice (orow (wL L))).set
  rw [orowK_eq]

omit [FloatOps F] in
theorem pts_pRowK (f : Buf (Elt F) (pLoc d)) :
    ((pRowK L).view.loc (V d (cV L) (jV L)) ↦[(pRowK L).view.set]{fullShare} f : sProp 𝕄) = pLoc d ↦[pRowSet (wL L)]{fullShare} f := by
  rw [set_pRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_iS (f : Buf (Elt F) ((V d (cV L) (jV L)).loc cc0_scratch0)) :
    ((iS).view.loc (V d (cV L) (jV L)) ↦{fullShare} f : sProp 𝕄) = (V d (cV L) (jV L)).loc cc0_scratch0 ↦{fullShare} f := rfl
omit [FloatOps F] in
theorem pts_rS (f : Buf (Elt F) ((V d (cV L) (jV L)).loc cc0_scratch1)) :
    ((rS).view.loc (V d (cV L) (jV L)) ↦{fullShare} f : sProp 𝕄) = (V d (cV L) (jV L)).loc cc0_scratch1 ↦{fullShare} f := rfl

/-- The three DMA semaphores of a worker: the index fetch's, the row fetch's, the write-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Whatever the index scratch held before, once the worker's block of the list has landed in it every word it
    holds is an entry of the list, hence below 100000. -/
theorem inb_of_pre (hpre : PreOK m) (fs : Buf (Elt F) ((V d (cV L) (jV L)).loc cc0_scratch0)) :
    ∀ x, ((iS).view.read (Elt F) (View.write (Elt F) (iS).view fs ((pRowK L).view.read (Elt F) (m (pLoc d))) Finset.univ) x).toNat
      < S100000x128.size gathers_S100000x128_S512x128.axis := by
  intro x
  rw [View.write_whole_univ]
  simp only [Memref.view_whole, View.read_whole]
  rw [show ∀ j, (pRowK L).view.read (Elt F) (m (pLoc d)) j = m (pLoc d) ((pRowK L).view.emb j) from fun j => (View.read_apply _ _).trans (cast_eq _ _)]
  rw [eq_ix1 ((pRowK L).view.emb x)]
  exact hpre d _

/-! ## The value of a worker's block -/

omit [FloatOps F] in
/-- Entry `k` of the worker's block of the list sits at entry `512 w + k` of the list, and row `k` of its block of the
    result at row `512 w + k` of the result: the two blocks start at the same place. -/
theorem blocks_aligned (k : Fin 512) (y : S512x128.Idx) (hk : k.val = (y 0).val) :
    (pRowK L).view.emb (ix1 k) = ix1 ⟨((oRowK L).view.emb y 0).val, idx2_lt0 ((oRowK L).view.emb y)⟩ := by
  funext a
  match a with
  | ⟨0, _⟩ =>
    refine Fin.ext ?_
    show k0_off1 L 0 + 1 * k.val = k0_off2 L 0 + 1 * (y 0).val
    rw [k0_off1_eq, k0_off2_eq, hk]; rfl

omit [FloatOps F] in
/-- The row numbers the engine reads off the index scratch, once the worker's block of the list has landed there,
    are the block's entries in order. -/
theorem rows_val (fs : Buf (Elt F) ((V d (cV L) (jV L)).loc cc0_scratch0))
    (hn : S512.numel = S512x128.size gathers_S100000x128_S512x128.axis')
    (h : ∀ x, ((iS).view.read (Elt F) (View.write (Elt F) (iS).view fs
        (ReadAs.same.apply ((pRowK L).view.read (Elt F) (m (pLoc d)))) Finset.univ) x).toNat < S100000x128.size gathers_S100000x128_S512x128.axis)
    (k : Fin 512) :
    (SparseCore.rows ((iS).view.read (Elt F) (View.write (Elt F) (iS).view fs
        (ReadAs.same.apply ((pRowK L).view.read (Elt F) (m (pLoc d)))) Finset.univ)) hn h k).val
      = (m (pLoc d) ((pRowK L).view.emb (ix1 k))).toNat := by
  have hsym : S512.rowMajor.symm (Fin.cast hn.symm k) = ix1 k := by
    rw [Equiv.symm_apply_eq]
    exact Fin.ext (Shape.rowMajor_val_one (ix1 k)).symm
  show ((iS).view.read (Elt F) (View.write (Elt F) (iS).view fs
        (ReadAs.same.apply ((pRowK L).view.read (Elt F) (m (pLoc d)))) Finset.univ) (S512.rowMajor.symm (Fin.cast hn.symm k))).toNat = _
  rw [hsym, View.write_whole_univ]
  simp only [Memref.view_whole, View.read_whole]
  exact congrArg BitVec.toNat ((View.read_apply _ _).trans (cast_eq _ _))

omit [FloatOps F] in
/-- What the worker leaves in its block of the result. The row scratch holds, at row `k`, the table's row numbered
    by entry `k` of the worker's block of the list; copied to rows `512 w …` of the result, entry `(512 w + k, j)`
    is the table at (entry `512 w + k` of the list, `j`): the specified value. -/
theorem block_value (hpre : PreOK m) (fr : Buf (Elt F) ((V d (cV L) (jV L)).loc cc0_scratch1))
    (r : Fin (S512x128.size gathers_S100000x128_S512x128.axis') → Fin (S100000x128.size gathers_S100000x128_S512x128.axis))
    (hr : ∀ k : Fin 512, (r k).val = (m (pLoc d) ((pRowK L).view.emb (ix1 k))).toNat)
    (pay : S512x128.Idx → Elt F .f32)
    (hpay : pay = ReadAs.same.apply ((rS).view.read (Elt F) ((rS).view.writes (Elt F) fr
        [⟨Rect.whole cc0_scratch1.ty.shape,
          SparseCore.gatherPayload gathers_S100000x128_S512x128 ((tAllK).view.read (Elt F) (m (tLoc d))) r⟩]))) :
    ∀ i ∈ (oRowK L).view.set, (oRowK L).view.writes (Elt F) (m (oLoc d)) [⟨Rect.whole S512x128, pay⟩] i = Gd m d i := by
  subst hpay
  intro i hi
  obtain ⟨y, -, rfl⟩ := Finset.mem_map.mp hi
  -- the block read back where it was written
  have e1 : ∀ w : S512x128.Idx → Elt F .f32,
      (oRowK L).view.writes (Elt F) (m (oLoc d)) [⟨Rect.whole S512x128, w⟩] ((oRowK L).view.emb y) = w y := by
    intro w
    have h := View.read_writes_cons_emb (oRowK L).view (m (oLoc d)) (Rect.whole S512x128) w [] y
    rw [Rect.emb_whole_apply] at h
    exact ((View.read_apply _ _).trans (cast_eq _ _)).symm.trans h
  have e2 : (rS).view.read (Elt F) ((rS).view.writes (Elt F) fr
      [⟨Rect.whole cc0_scratch1.ty.shape,
        SparseCore.gatherPayload gathers_S100000x128_S512x128 ((tAllK).view.read (Elt F) (m (tLoc d))) r⟩]) y
      = SparseCore.gatherPayload gathers_S100000x128_S512x128 ((tAllK).view.read (Elt F) (m (tLoc d))) r y := by
    have h := View.read_writes_cons_emb (rS).view fr (Rect.whole cc0_scratch1.ty.shape)
      (SparseCore.gatherPayload gathers_S100000x128_S512x128 ((tAllK).view.read (Elt F) (m (tLoc d))) r) [] y
    rw [Rect.emb_whole_apply] at h
    exact h
  rw [e1, ReadAs.apply_same, e2]
  show (tAllK).view.read (Elt F) (m (tLoc d)) (gathers_S100000x128_S512x128.idx r y) = _
  refine ((View.read_apply _ _).trans (cast_eq _ _)).trans ?_
  show m (tLoc d) ((tAllK).view.emb (gathers_S100000x128_S512x128.idx r y))
    = m (tLoc d) (ix2 (Cert.Spec.rowOf (m (pLoc d)) ⟨((oRowK L).view.emb y 0).val, idx2_lt0 ((oRowK L).view.emb y)⟩)
        ⟨((oRowK L).view.emb y 1).val, idx2_lt1 ((oRowK L).view.emb y)⟩)
  refine congrArg (m (tLoc d)) ?_
  funext a
  match a with
  | ⟨0, _⟩ =>
    refine Fin.ext ?_
    show 0 + 1 * (gathers_S100000x128_S512x128.idx r y gathers_S100000x128_S512x128.axis).val = _
    rw [Shape.Gathers.idx_axis, Nat.zero_add, Nat.one_mul]
    show (r ⟨(y 0).val, (y 0).isLt⟩).val = _
    refine (hr ⟨(y 0).val, (y 0).isLt⟩).trans ?_
    refine (congrArg (fun j => (m (pLoc d) j).toNat) (blocks_aligned L ⟨(y 0).val, (y 0).isLt⟩ y rfl)).trans ?_
    exact (Cert.Spec.rowOf_val (p := m (pLoc d)) (hpre d _)).symm
  | ⟨1, _⟩ =>
    refine Fin.ext ?_
    show 0 + 1 * (gathers_S100000x128_S512x128.idx r y ⟨1, by decide⟩).val = k0_off2 L 1 + 1 * (y 1).val
    rw [Shape.Gathers.idx_of_ne _ _ _ _ (by decide), k0_off2_eq]; rfl

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goR m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) pV (Memref.isWhole_whole _) oV (Memref.isWhole_whole _)
            iS (Memref.isWhole_whole _) rS (Memref.isWhole_whole _) cc0_scratch2 cc0_scoped0 cc0_scoped1)
          fun _ => iprop(tdR m d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hp, Ht, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_pRowK (F := F) d L _).symm) $$ Hp
  ihave Ho' := (Entails.of_eq (pts_oRowK (F := F) d L _).symm) $$ Ho
  ihave Ht' := (Entails.of_eq (pts_tV (F := F) d L _ _).symm) $$ Ht
  ihave Hs' := (Entails.of_eq (pts_iS (F := F) d L _).symm) $$ Hs
  ihave Hr' := (Entails.of_eq (pts_rS (F := F) d L _).symm) $$ Hr
  have hin := inb_of_pre m d L hpre
  sl_exec
  have hval : ∀ i ∈ (oRowK L).view.set,
      (oRowK L).view.writes (Elt F) (m (oLoc d)) [⟨Rect.whole S512x128, tile_body.sl.dma0_1 m d L fs fr hin⟩] i = Gd m d i :=
    block_value m d L hpre fr _ (fun k => rows_val m d L fs _ (fun x => id (hin fs x)) k) _ rfl
  sl_step
  isplitl [Hp' Ht' Ho']
  · isplitl [Hp']; · iapply (Entails.of_eq (pts_pRowK (F := F) d L _)); iexact Hp'
    isplitl [Ht']; · iexact Ht'
    iapply (Entails.of_eq ((pointsTo_congr hval).trans (pts_oRowK (F := F) d L (Gd m d)))); iexact Ho'
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.BitsK

end
-- ==== Proof.BitsMain.lean ====
/-
  The TensorCore's side of the run. Before the one call it cuts the list and the result into the thirty-two workers'
  blocks and the table into thirty-two read shares and a remainder it keeps; two cores of sixteen workers take their
  parts. After the call every block of the result is at the specified rows, the blocks cover the result, and the
  shares and the remainder make the table whole again; so the three arguments end as they began and the result ends
  at the rows the list names, which is then read off the final memory.
-/
import proofs.«204865_g18872086299473_cont_8to1_712_9_alg».proof.Proof.BitsSetup

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg0_scv : Memref Cert.Kernel.sig Kind.scVector Space.hbm Cert.Kernel.S100000x128 EltTy.f32)
local notation "pV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "iS" => (Memref.whole Cert.Kernel.cc0_scratch0 : Memref Cert.Kernel.sig Kind.scVector Space.vmem Cert.Kernel.S512 EltTy.i32)
local notation "rS" => (Memref.whole Cert.Kernel.cc0_scratch1 : Memref Cert.Kernel.sig Kind.scVector Space.vmem Cert.Kernel.S512x128 EltTy.f32)

variable [FloatOps F]

/-! ## The blocks cut and joined; the table's shares -/

omit [FloatOps F] in
theorem pRowSet_eq (w : Fin 32) : pRowSet w = (prow w).set := by
  show ((View.whole (main_arg1_scv : Ref sig .scVector)).slice (prow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem prows_disjoint : ∀ i ∈ (Finset.univ : Finset (Fin 32)), ∀ j ∈ (Finset.univ : Finset (Fin 32)), i ≠ j → Disjoint (pRowSet i) (pRowSet j) :=
  fun i _ j _ h => by rw [pRowSet_eq, pRowSet_eq]; exact Rect.part_disjoint pdiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem prows_cover : (Finset.univ : Finset (Fin 32)).biUnion pRowSet = Finset.univ :=
  (Finset.biUnion_congr rfl fun i _ => pRowSet_eq i).trans (Rect.biUnion_part pdiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem pPts_rows (d : Dev nD) (f : Buf (Elt F) (pLoc d)) :
    (pLoc d ↦{fullShare} f : sProp 𝕄) = bigSep Finset.univ fun w : Fin 32 => pLoc d ↦[pRowSet w]{fullShare} f := by
  rw [← pointsTo_biUnion Finset.univ (ℓ := pLoc d) pRowSet prows_disjoint, prows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

omit [FloatOps F] in
/-- Thirty-two workers are two cores of sixteen. -/
theorem bigSep_workers (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i)))
      = bigSep Finset.univ Φ := by
  rw [bigSep_univ_equiv (finProdFinEquiv : Fin 2 × Fin 16 ≃ Fin 32) Φ, bigSep_univ_prod]
  rfl

/-- The arrays whole are the workers' parts and the remainder of the table's share; -/
theorem st_split (d : Dev nD) :
    iprop(tPts m d ∗ pPts m d ∗ oPts d (m (oLoc d)))
      ⊢ iprop((tLoc d ↦{Transfers.shareDrop fullShare 32} m (tLoc d))
          ∗ bigSep Finset.univ fun c : Fin ((K (F := F)).nCore 0) => (P m).st 0 d c) := by
  show _ ⊢ iprop(_ ∗ bigSep Finset.univ fun c : Fin ((K (F := F)).nCore 0) => bigSep Finset.univ fun i : Fin ((K (F := F)).nSub 0) =>
    goR m d (wid (Fin.cast nCore_zero c) (Fin.cast nSub_zero i)))
  rw [bigSep_workers (F := F) (fun w => goR m d w), bigSep_sep', bigSep_sep']
  unfold pPts oPts
  rw [pPts_rows, oPts_rows]
  iintro ⟨Ht, Hp, Ho⟩
  ihave Hts := (Transfers.pointsTo_toks_split (ℓ := tLoc d) (S := Finset.univ) (f := m (tLoc d)) fullShare 32) $$ Ht
  icases Hts with ⟨Hrem, Hts⟩
  isplitl [Hrem]; · iexact Hrem
  isplitl [Hp]; · iexact Hp
  isplitl [Hts]; · iexact Hts
  iexact Ho

/-- and back, the result's blocks now at the specified rows. -/
theorem dn_join (d : Dev nD) :
    iprop((tLoc d ↦{Transfers.shareDrop fullShare 32} m (tLoc d))
          ∗ bigSep Finset.univ fun c : Fin ((K (F := F)).nCore 0) => (P m).dn 0 d c)
      ⊢ iprop(tPts m d ∗ pPts m d ∗ oPts d (Gd m d)) := by
  show iprop(_ ∗ bigSep Finset.univ fun c : Fin ((K (F := F)).nCore 0) => bigSep Finset.univ fun i : Fin ((K (F := F)).nSub 0) =>
    tdR m d (wid (Fin.cast nCore_zero c) (Fin.cast nSub_zero i))) ⊢ _
  rw [bigSep_workers (F := F) (fun w => tdR m d w), bigSep_sep', bigSep_sep']
  unfold pPts oPts
  rw [pPts_rows, oPts_rows]
  iintro ⟨Hrem, Hp, Hts, Ho⟩
  isplitl [Hrem Hts]
  · iapply (Transfers.pointsTo_toks_join (ℓ := tLoc d) (S := Finset.univ) (f := m (tLoc d)) fullShare 32)
    isplitl [Hrem]; · iexact Hrem
    iexact Hts
  isplitl [Hp]; · iexact Hp
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (pLoc d ↦{fullShare} W main_arg1) ∗ (sLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What @main leaves the claim: the three arguments at their launch contents, the result at the specified rows. -/
abbrev FIN (d : Dev nD) : sProp 𝕄 := iprop(tPts m d ∗ pPts m d ∗ (sLoc d ↦{fullShare} m (sLoc d)) ∗ oPts d (Gd m d))

/-- @main on device `d`'s TensorCore: the one call, from the three arrays cut into the workers' parts and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hp, Hs, Ho⟩, -, -⟩, -⟩
  ihave Hsp := (st_split m d) $$ [Ht Hp Ho]
  · isplitl [Ht]; · iexact Ht
    isplitl [Hp]; · iexact Hp
    iexact Ho
  icases Hsp with ⟨Hrem, Hst0⟩
  iapply ((K (F := F)).wp_run (D (F := F)) 𝒱 (EH := EH) (P := P m) κ d 0) $$ [Hst Hst0 Hrem Hs]
  isplitr; · iexact Hctx
  isplitl [Hst]; · iexact Hst
  isplitl [Hst0]; · iexact Hst0
  iintro ⟨Hst, Hdn⟩
  ihave Hj := (dn_join m d) $$ [Hrem Hdn]
  · isplitl [Hrem]; · iexact Hrem
    iexact Hdn
  icases Hj with ⟨Ht, Hp, Ho⟩
  imodintro
  isplitl [Hst]; · iexact Hst
  isplitl [Ht]; · iexact Ht
  isplitl [Hp]; · iexact Hp
  isplitl [Hs]; · iexact Hs
  iexact Ho

def fq (d : Dev nD) (s' : Phys nD τ sig (Elt F)) : Prop :=
  s'.mem.mem (oLoc d) = Gd m d ∧ s'.mem.mem (tLoc d) = m (tLoc d) ∧ s'.mem.mem (pLoc d) = m (pLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Ht, Hp, Hs, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h3, HSI, -⟩
  ihave H := (SI_pointsTo_agree (st := s') (ℓ := oLoc d) (I := Finset.univ) (q := fullShare) (f := Gd m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

end Cert.Proof.BitsK

end
-- ==== Proof.BitsLaunch.lean ====
/-
  The whole device's run, from its two halves: each worker's task ends with its block of the result at the rows its
  entries name, and the TensorCore hands the workers their parts and takes them back. So from a memory whose list
  names rows of the table every weakly fair execution of the device's threads ends, nothing faults, the three
  arguments end as they began and the result ends at the rows the list names.
-/
import proofs.«204865_g18872086299473_cont_8to1_712_9_alg».proof.Proof.BitsBody
import proofs.«204865_g18872086299473_cont_8to1_712_9_alg».proof.Proof.BitsMain

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "tV" => (Memref.whole Cert.Kernel.main_arg0_scv : Memref Cert.Kernel.sig Kind.scVector Space.hbm Cert.Kernel.S100000x128 EltTy.f32)
local notation "pV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "iS" => (Memref.whole Cert.Kernel.cc0_scratch0 : Memref Cert.Kernel.sig Kind.scVector Space.vmem Cert.Kernel.S512 EltTy.i32)
local notation "rS" => (Memref.whole Cert.Kernel.cc0_scratch1 : Memref Cert.Kernel.sig Kind.scVector Space.vmem Cert.Kernel.S512x128 EltTy.f32)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) pV (Memref.isWhole_whole _) oV (Memref.isWhole_whole _)
          iS (Memref.isWhole_whole _) rS (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The program's run -/

def QC : PUnit × MemSt nD τ sig (Elt F) → Prop := fun r => ∀ c : Dev nD,
  r.2.mem (oLoc c) = Gd m c ∧ r.2.mem (tLoc c) = m (tLoc c) ∧ r.2.mem (pLoc c) = m (pLoc c) ∧ r.2.mem (sLoc c) = m (sLoc c)

/-- Every weakly fair execution of the device's threads from a memory whose list names rows of the table ends, with
    the result at the rows the list names and the arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.BitsK

end
-- ==== Proof.RefRun.lean ====
/-
  The reference program run by hand. Its @main calls one function, which wraps the list's negative words, tests each
  wrapped word against the table's bounds, gathers the rows and selects between the gathered rows and a filler; that
  function's one inner call is a select. With both calls unfolded the program is a straight line of 23 operations,
  each writing a buffer of its own, and every execution ends with each buffer at the line's fold over the launch
  contents.
-/
import proofs.«204865_g18872086299473_cont_8to1_712_9_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, both calls unfolded: the wrap of negative words (a comparison with 0, the sum with
    100000, the inner call's select), the wrapped words as a column, the two bound tests and their conjunction, its
    and-reduction over the unit axis, the gather of rows, the mask spread over the row, the filler, the final select. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S16384x1_S16384_d1 h_S_),
    TRef.binary (.of main_arg0) main_call0.v5 main_call0.v13
      (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters, for any float values: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefRead.lean ====
/-
  The reference's result as one term of the table and the list, and that term read at an index. When every word of
  the list is below 100000: such a word is non-negative as a signed integer, so it is not wrapped; it passes both
  bound tests, so the and over the unit axis is 1 and the select keeps the gathered entry; and the gather's start
  row, the word read signed and capped at the last row, is the word itself. Entry (n, j) of the result is then the
  table's entry (word n, j).
-/
import proofs.«204865_g18872086299473_cont_8to1_712_9_alg».proof.Proof.Gen.ReferenceIdeal
import proofs.«204865_g18872086299473_cont_8to1_712_9_alg».proof.Proof.Spec
import Idealize.ShloMosaic.Lib.ValueIdx
import Idealize.ShloMosaic.Lib.ReduceAll

noncomputable section

namespace Cert.RefSide

open Cert.ReferenceIdeal Cert.ReferenceIdeal.Gen Idealize.ShloMosaic Idealize.ShloMosaic.ValueIdx

variable {F : FTy → Type} [FloatOps F]

/-! ## The term -/

/-- The list's words, a negative one moved up by 100000. -/
def wrapped (p : IVec S16384 32) : IVec S16384 32 :=
  select (cmpi .slt p (broadcastInDim S16384 ![] bcast_S_S16384 (constantI S_ 32 0#32)))
    (addi p (broadcastInDim S16384 ![] bcast_S_S16384 (constantI S_ 32 100000#32))) p

/-- The wrapped words as a column: the gather's start indices. -/
def col (p : IVec S16384 32) : IVec S16384x1 32 :=
  broadcastInDim S16384x1 ![0] bcast_S16384_S16384x1_0 (wrapped p)

/-- Per start index, whether it lies in [0, 99999] as a signed integer. -/
def inBounds (p : IVec S16384 32) : IVec S16384x1 1 :=
  andi (cmpi .sge (col p) (broadcastInDim S16384x1 ![] bcast_S_S16384x1 (constantI S_ 32 0#32)))
    (cmpi .sle (col p) (broadcastInDim S16384x1 ![0, 1] bcast_S1x1_S16384x1_0_1
      (broadcastInDim S1x1 ![1] bcast_S1_S1x1_1 (constantI S1 32 99999#32))))

/-- Per entry of the list, the and of its bound tests over the unit axis. -/
def mask (p : IVec S16384 32) : IVec S16384 1 :=
  Host.reduce IntOp.andi (inBounds p) (constantI S_ 1 1#1) reducesTo_S16384x1_S16384_d1 h_S_

/-- The result: the gathered rows where the mask is 1, the filler elsewhere. -/
def refOut (x : FVec F S100000x128 .f32) (p : IVec S16384 32) : FVec F S16384x128 .f32 :=
  select (broadcastInDim S16384x128 ![0] bcast_S16384_S16384x128_0 (mask p))
    (Host.gather gather_S100000x128_S16384x1_S16384x128_1_0_n_n_0_1_1128 x (col p))
    (broadcastInDim S16384x128 ![] bcast_S_S16384x128 (constant S_ .f32 0x7FC00000#32))

/-! ## Words below 100000 -/

section Words
variable {v : BitVec 32}

/-- Such a word reads the same signed and unsigned. -/
theorem toInt_of_lt (h : v.toNat < 100000) : v.toInt = (v.toNat : Int) :=
  BitVec.toInt_eq_toNat_of_lt (by omega)

theorem not_slt_zero (h : v.toNat < 100000) : ¬IntOp.cmpi .slt v 0#32 = 1#1 := by
  rw [IntOp.cmpi_slt, toInt_of_lt h, show (0#32 : BitVec 32).toInt = 0 from by decide]; omega

theorem sge_zero (h : v.toNat < 100000) : IntOp.cmpi .sge v 0#32 = 1#1 := by
  rw [IntOp.cmpi_sge, toInt_of_lt h, show (0#32 : BitVec 32).toInt = 0 from by decide]; omega

theorem sle_last (h : v.toNat < 100000) : IntOp.cmpi .sle v 99999#32 = 1#1 := by
  rw [IntOp.cmpi_sle, toInt_of_lt h, show (99999#32 : BitVec 32).toInt = 99999 from by decide]; omega

theorem toInt_toNat_of_lt (h : v.toNat < 100000) : v.toInt.toNat = v.toNat := by
  rw [toInt_of_lt h, Int.toNat_natCast]

end Words

/-! ## The operations at an index -/

/-- A word below 100000 is not wrapped. -/
theorem wrapped_apply (p : IVec S16384 32) (n : Fin 16384) (h : (p (ix1 n)).toNat < 100000) :
    wrapped p (ix1 n) = p (ix1 n) := by
  show Scalar.select (IntOp.cmpi .slt (p (ix1 n)) 0#32) (IntOp.addi (p (ix1 n)) 100000#32) (p (ix1 n)) = _
  rw [eq_zero_of_ne_one (not_slt_zero h), select_zero]

/-- The column's entry (n, 0) is the list's wrapped entry n. -/
theorem col_apply (p : IVec S16384 32) (n : Fin 16384) (k : Fin 1) : col p (ix2 n k) = wrapped p (ix1 n) := by
  unfold col broadcastInDim
  congr 1
  funext a
  match a with
  | ⟨0, _⟩ => rfl

/-- A vector spread along the rows reads its entry n everywhere in row n. -/
theorem bcast_row_apply {α : Type} (u : S16384.Idx → α) (n : Fin 16384) (j : Fin 128) :
    broadcastInDim S16384x128 ![0] bcast_S16384_S16384x128_0 u (ix2 n j) = u (ix1 n) := by
  unfold broadcastInDim
  congr 1
  funext a
  match a with
  | ⟨0, _⟩ => rfl

/-- Both bound tests at (n, 0), on the wrapped word. -/
theorem inBounds_apply (p : IVec S16384 32) (n : Fin 16384) (k : Fin 1) :
    inBounds p (ix2 n k)
      = IntOp.andi (IntOp.cmpi .sge (wrapped p (ix1 n)) 0#32) (IntOp.cmpi .sle (wrapped p (ix1 n)) 99999#32) := by
  show IntOp.andi (IntOp.cmpi .sge (col p (ix2 n k)) 0#32) (IntOp.cmpi .sle (col p (ix2 n k)) 99999#32) = _
  rw [col_apply]

/-- A left fold by and from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi (1#1 : BitVec 1) 1#1 = 1#1 from by decide]
    exact foldl_andi_one f hf l

/-- An and-reduction from 1 of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x hx _

/-- With every word below 100000 the mask is 1 everywhere. -/
theorem mask_apply (p : IVec S16384 32) (hp : ∀ n : Fin 16384, (p (ix1 n)).toNat < 100000) (n : Fin 16384) :
    mask p (ix1 n) = 1#1 := by
  unfold mask
  refine reduce_andi_one _ _ _ _ _ (fun i => ?_) (fun _ => rfl)
  obtain ⟨a, b, rfl⟩ : ∃ (a : Fin 16384) (b : Fin 1), i = ix2 a b := ⟨i 0, i 1, eq_ix2 i⟩
  rw [inBounds_apply, wrapped_apply p a (hp a), sge_zero (hp a), sle_last (hp a)]
  decide

/-- THE GATHER READ AT (n, j): the table at the row that start index n names — read signed and capped at the last
    row — and column j. Axis 0 of the table is indexed through the start index (collapsed: slice height 1), axis 1 by
    the result's own second coordinate (the offset axis: a whole row of 128). -/
theorem gather_apply {α : Type} {w : Nat} (x : S100000x128.Idx → α) (idx : IVec S16384x1 w) (n : Fin 16384) (j : Fin 128) :
    Host.gather gather_S100000x128_S16384x1_S16384x128_1_0_n_n_0_1_1128 x idx (ix2 n j)
      = x (ix2 ⟨min (idx (ix2 n 0)).toInt.toNat (100000 - 1), by omega⟩ j) := by
  unfold Host.gather
  congr 1
  funext a
  refine Fin.ext ?_
  match a with
  | ⟨0, _⟩ =>
    show gather_S100000x128_S16384x1_S16384x128_1_0_n_n_0_1_1128.start (ix2 n j) idx 0
        + gather_S100000x128_S16384x1_S16384x128_1_0_n_n_0_1_1128.batchCoord (ix2 n j) 0
        + gather_S100000x128_S16384x1_S16384x128_1_0_n_n_0_1_1128.offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x1_S16384x128_1_0_n_n_0_1_1128.startIndexMap from
      List.mem_singleton.mpr rfl)]
    have hsi : gather_S100000x128_S16384x1_S16384x128_1_0_n_n_0_1_1128.siIdx (ix2 n j)
        ⟨List.idxOf (0 : Fin 2) gather_S100000x128_S16384x1_S16384x128_1_0_n_n_0_1_1128.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show gather_S100000x128_S16384x1_S16384x128_1_0_n_n_0_1_1128.start (ix2 n j) idx 1
        + gather_S100000x128_S16384x1_S16384x128_1_0_n_n_0_1_1128.batchCoord (ix2 n j) 1
        + gather_S100000x128_S16384x1_S16384x128_1_0_n_n_0_1_1128.offCoord (ix2 n j) 1 = j.val
    rw [GatherDims.batchCoord_eq_zero _ _ _ List.not_mem_nil]
    unfold GatherDims.start
    rw [dif_neg (show (1 : Fin 2) ∉ gather_S100000x128_S16384x1_S16384x128_1_0_n_n_0_1_1128.startIndexMap from by decide)]
    unfold GatherDims.offCoord
    rw [dif_pos (show (1 : Fin 2) ∈ gather_S100000x128_S16384x1_S16384x128_1_0_n_n_0_1_1128.sKept from by decide)]
    simp only [Nat.zero_add, Nat.add_zero]
    rfl

/-! ## The result at an index -/

/-- With every word below 100000, entry (n, j) of the result is the table at (word n, j). -/
theorem refOut_apply (x : FVec F S100000x128 .f32) (p : IVec S16384 32)
    (hp : ∀ n : Fin 16384, (p (ix1 n)).toNat < 100000) (n : Fin 16384) (j : Fin 128) :
    refOut x p (ix2 n j) = x (ix2 (Cert.Spec.rowOf p n) j) := by
  unfold refOut
  rw [select_apply, bcast_row_apply, mask_apply p hp n, select_one, gather_apply]
  have hrow : (⟨min (col p (ix2 n 0)).toInt.toNat (100000 - 1), by omega⟩ : Fin 100000) = Cert.Spec.rowOf p n :=
    Fin.ext (by
      show min (col p (ix2 n 0)).toInt.toNat (100000 - 1) = min (p (ix1 n)).toNat 99999
      rw [col_apply, wrapped_apply p n (hp n), toInt_toNat_of_lt (hp n)])
  rw [hrow]

/-- With every word below 100000 the result is the rows the list names. -/
theorem refOut_eq (x : FVec F S100000x128 .f32) (p : IVec S16384 32)
    (hp : ∀ n : Fin 16384, (p (ix1 n)).toNat < 100000) : refOut x p = Cert.Spec.G x p := by
  funext y
  obtain ⟨n, j, rfl⟩ : ∃ (n : Fin 16384) (j : Fin 128), y = ix2 n j := ⟨y 0, y 1, eq_ix2 y⟩
  rw [refOut_apply x p hp, Cert.Spec.G_apply]

end Cert.RefSide

end
-- ==== Proof.RefValue.lean ====
/-
  The reference's run read back: from launch contents whose list words are all below 100000, every execution ends
  with the result buffer holding the rows the list names and the three arguments unchanged.
-/
import proofs.«204865_g18872086299473_cont_8to1_712_9_alg».proof.Proof.RefRun
import proofs.«204865_g18872086299473_cont_8to1_712_9_alg».proof.Proof.RefRead

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

attribute [local irreducible] Host.reduce Host.gather in
set_option maxRecDepth 8192 in
/-- The line's fold at the result buffer is the composed term of the two arguments' contents: each operation's
    result is rewritten to its function's value at its own buffer and passed through at every other; what is left
    differs from the term only by the names given to its parts. The and-reduction and the gather stay folded
    meanwhile: the equation never looks inside them. -/
theorem out_eq (V : Valuation τ sig (Elt F)) :
    after ops V (main_v0 : DevRef τ sig) = refOut (V (main_arg0 : DevRef τ sig)) (V (main_arg1 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- From any memory with zero counters whose list words are all below 100000, for any float values: every weakly
    fair execution of @main terminates with the result buffer at the rows the list names, and the arguments
    unchanged. -/
theorem run (m : (ℓ : Loc nD τ sig) → Buf (Elt F) ℓ) (ρ : Dev nD → PrngReg)
    (hp : ∀ (c : Dev nD) (n : Fin 16384), (m ((c.tc : Thread nD τ).loc main_arg1) (ValueIdx.ix1 n)).toNat < 100000) :
    θ_run (defs (F := F)) (onTc (τ := τ) (main (F := F))) ⟨m, fun _ => 0, ρ⟩ fun r => ∀ c : Dev nD,
      r.2.mem ((c.tc : Thread nD τ).loc main_v0) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v0).trans ((out_eq _).trans (refOut_eq _ _ (hp c))),
        (h c main_arg0).trans (arg0_eq _),
        (h c main_arg1).trans (arg1_eq _),
        (h c main_arg2).trans (arg2_eq _)⟩)
    (run_main m ρ)

end Cert.RefSide

end
-- ==== Proof.lean ====
/-
  The claim. The kernel and the reference both return, for a table of 100000 rows of 128 numbers and a list of 16384
  row numbers between 0 and 99999, the 16384 rows the list names: entry (n, j) of the result is entry (list n, j) of
  the table. The kernel does it with thirty-two workers, each fetching the rows named by its 512 entries of the list
  and writing them to its 512 rows of the result; the reference with one gather guarded by a bounds test that the
  precondition makes vacuous. No arithmetic is done on a table entry by either program, so the two results are the
  same function of the arguments at every float instance, the extended reals included, and nothing of the table's
  finiteness is used. The frames are the same runs with the value forgotten. The idealization rewrote nothing, so
  there is nothing to preserve.
-/
import proofs.«204865_g18872086299473_cont_8to1_712_9_alg».proof.Defs
import proofs.«204865_g18872086299473_cont_8to1_712_9_alg».proof.Proof.Gen.Kernel
import proofs.«204865_g18872086299473_cont_8to1_712_9_alg».proof.Proof.Gen.Kernel.Skeleton
import proofs.«204865_g18872086299473_cont_8to1_712_9_alg».proof.Proof.Gen.KernelIdeal
import proofs.«204865_g18872086299473_cont_8to1_712_9_alg».proof.Proof.Gen.KernelIdeal.Skeleton
import proofs.«204865_g18872086299473_cont_8to1_712_9_alg».proof.Proof.Gen.ReferenceIdeal
import proofs.«204865_g18872086299473_cont_8to1_712_9_alg».proof.Proof.Gen.Pre_input_domain
import proofs.«204865_g18872086299473_cont_8to1_712_9_alg».proof.Proof.PreDecode
import proofs.«204865_g18872086299473_cont_8to1_712_9_alg».proof.Proof.IdealLaunch
import proofs.«204865_g18872086299473_cont_8to1_712_9_alg».proof.Proof.BitsLaunch
import proofs.«204865_g18872086299473_cont_8to1_712_9_alg».proof.Proof.RefValue
import Idealize.ShloMosaic.Adequacy
import Idealize.ShloMosaic.Init

noncomputable section

namespace Cert.Proof

open Idealize.ShloMosaic Idealize.SL.Sem

/-- The precondition's middle conjunct: every entry of the list, read unsigned, is below 100000. -/
theorem preOK_bits (m : (ℓ : Loc Cert.Kernel.nD Cert.Kernel.τ Cert.Kernel.sig) → Buf (Elt Bits) ℓ) (h : Cert.Pre_Kernel m) :
    BitsK.PreOK (F := Bits) m := fun d n => Cert.PreDecode.perm_lt _ _ _ (h d) n
theorem preOK_ideal (m : (ℓ : Loc Cert.KernelIdeal.nD Cert.KernelIdeal.τ Cert.KernelIdeal.sig) → Buf (Elt Ideal) ℓ) (h : Cert.Pre_KernelIdeal m) :
    IdealK.PreOK (F := Ideal) m := fun d n => Cert.PreDecode.perm_lt _ _ _ (h d) n

theorem frame_k : Cert.frame_Kernel := fun m ρ hpre =>
  (θ_run Cert.Kernel.defs _ _).mono (fun _ h c => ⟨(h c).2.1, (h c).2.2.1, (h c).2.2.2⟩) (BitsK.run_main (F := Bits) m ρ (preOK_bits m hpre))

theorem frame_ki : Cert.frame_KernelIdeal := fun m ρ hpre =>
  (θ_run Cert.KernelIdeal.defs _ _).mono (fun _ h c => ⟨(h c).2.1, (h c).2.2.1, (h c).2.2.2⟩) (IdealK.run_main (F := Ideal) m ρ (preOK_ideal m hpre))

theorem frame_ri : Cert.frame_ReferenceIdeal := fun m ρ hpre =>
  (θ_run Cert.ReferenceIdeal.defs _ _).mono (fun _ h c => (h c).2)
    (Cert.RefSide.run (F := Ideal) m ρ (fun c n => Cert.PreDecode.perm_lt _ _ _ (hpre c) n))

/-- The idealization rewrote no operation. -/
theorem preserves : Cert.preserves_Kernel_KernelIdeal := trivial

/-- From memories agreeing on the arguments both programs end with the result at the rows the list names. -/
theorem algebraic : Cert.algebraic_KernelIdeal_ReferenceIdeal := by
  intro m ρ m' ρ' hpre hagree
  refine ⟨fun c => IdealK.Gd m c, ?_, ?_⟩
  · exact (θ_run Cert.KernelIdeal.defs _ _).mono (fun _ h c => h c) (IdealK.run_main (F := Ideal) m ρ (preOK_ideal m hpre))
  · have hp : ∀ (c : Dev Cert.ReferenceIdeal.nD) (n : Fin 16384),
        (m' ((c.tc : Thread Cert.ReferenceIdeal.nD Cert.ReferenceIdeal.τ).loc Cert.ReferenceIdeal.main_arg1) (ValueIdx.ix1 n)).toNat < 100000 := by
      intro c n
      rw [(hagree c).2.1]
      exact preOK_ideal m hpre c n
    refine (θ_run Cert.ReferenceIdeal.defs _ _).mono (fun _ h c => ⟨(h c).1.trans ?_, (h c).2⟩)
      (Cert.RefSide.run (F := Ideal) m' ρ' hp)
    rw [(hagree c).1, (hagree c).2.1]; rfl

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
